-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S2048x2048 : Shape := ⟨2, ![2048, 2048]⟩
abbrev S2048 : Shape := ⟨1, ![2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x512x2048 .f32) (main_arg1 : FVec F S2048x2048 .f32) (main_arg2 : FVec F S2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x512x2048 : Shape := ⟨3, ![8, 512, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S8x512x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x512x2048_S4096x2048 : S8x512x2048.ShapeCasts S4096x2048
  shapeCasts_S2048_S1x2048 : S2048.ShapeCasts S1x2048
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S8x512x2048 : S4096x2048.ShapeCasts S8x512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x2048 : Shape := ⟨3, ![8, 512, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S256x512 : Shape := ⟨2, ![256, 512]⟩
abbrev S1x256 : Shape := ⟨2, ![1, 256]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S8x512x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x512x2048_S4096x2048 : S8x512x2048.ShapeCasts S4096x2048
  shapeCasts_S2048_S1x2048 : S2048.ShapeCasts S1x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S4096x2048_S8x512x2048 : S4096x2048.ShapeCasts S8x512x2048
  dot_S256x512_S256x512_S256x256_1_1_0_0_n_n_wf : DotDims.WF S256x512 S256x512 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x2048.size a
  hwx0_0 : ∀ i : grid0.Coords, EltTy.bits .f32 = 32 ∨ (Rect.block (s := S4096x2048) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x2048.size a
  hwx0_1 : ∀ i : grid0.Coords, EltTy.bits .f32 = 32 ∨ (Rect.block (s := S2048x2048) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x2048.size a
  hwx0_3 : ∀ i : grid0.Coords, EltTy.bits .f32 = 32 ∨ (Rect.block (s := S4096x2048) S256x256.size (cc0_transform_3 i) (hinb0_3 i)).WholeWords (EltTy.packing .f32)

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.RowTilePieces.lean ====
/-
  What one grid point leaves behind, as values of the blocks it was given.  At the first point the body stores the
  weight block, narrowed, into the scratch it carries, reads it back, and stores into the output block the product
  of the input rows with it plus the bias row; at every later point the scratch is left alone and the same product
  is taken against what the scratch already holds.  Each store covers its whole buffer, so a buffer read back after
  the body is the payload of its one store; a load through the whole-shape rectangle at zero offsets is the buffer.
-/
import proofs.«155436_g2000605269542612_pallasbulk_1228_29_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.RowTiles

open Cert.KernelIdeal Cert.KernelIdeal.Gen

variable {F : FTy → Type} [FloatOps F]

/-- The zero offsets of a rank-2 rectangle, as a constant function. -/
theorem zero_offsets : (![0, 0] : Fin 2 → Nat) = fun _ => 0 := funext fun a => by fin_cases a <;> rfl

/-- The first point leaves the narrowed weight block in the scratch. -/
theorem scratch_first (c : Dev nD) (i : grid0.Coords) (arg1 : Memref sig .tc .vmem S512x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S2048x2048 .bf16) (harg5 : arg5.IsWhole) (hc0 : cond0_0 i)
    (x0 : Vec F S512x2048 .f32) (x1 : Vec F S2048x2048 .f32) (x2 : Vec F S1x2048 .f32) :
    sout0_A_0 c i arg1 harg1 arg2 harg2 arg3 harg3 arg4 harg4 arg5 harg5 hc0 x0 x1 x2 = k0_pay1 x1 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_unit_zero zero_offsets]
  simp only [View.readAt_eq_ld, harg2.read_unread, View.ld_unit_zero (S := S2048x2048) zero_offsets]

/-- The first point leaves in the output block the affine map of its rows against the weight block just stored. -/
theorem out_first (c : Dev nD) (i : grid0.Coords) (arg1 : Memref sig .tc .vmem S512x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S2048x2048 .bf16) (harg5 : arg5.IsWhole) (hc0 : cond0_0 i)
    (x0 : Vec F S512x2048 .f32) (x1 : Vec F S2048x2048 .f32) (x2 : Vec F S1x2048 .f32) :
    out0_A_3 c i arg1 harg1 arg2 harg2 arg3 harg3 arg4 harg4 arg5 harg5 hc0 x0 x1 x2 = k0_pay2 x0 (k0_pay1 x1) x2 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero zero_offsets, View.readCov_unit_zero (S := S2048x2048) _ zero_offsets]
  simp only [View.readAt_eq_ld, harg1.read_unread, harg2.read_unread, harg3.read_unread,
    View.ld_unit_zero (S := S512x2048) zero_offsets, View.ld_unit_zero (S := S2048x2048) zero_offsets,
    View.ld_unit_zero (S := S1x2048) zero_offsets]

/-- A later point leaves in the output block the affine map of its rows against what the scratch holds. -/
theorem out_later (c : Dev nD) (i : grid0.Coords) (arg1 : Memref sig .tc .vmem S512x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S2048x2048 .bf16) (harg5 : arg5.IsWhole) (hc0 : ¬cond0_0 i)
    (x0 : Vec F S512x2048 .f32) (x1 : Vec F S2048x2048 .f32) (x2 : Vec F S1x2048 .f32) (xs0 : Vec F S2048x2048 .bf16) :
    out0_B_3 c i arg1 harg1 arg2 harg2 arg3 harg3 arg4 harg4 arg5 harg5 hc0 x0 x1 x2 xs0 = k0_pay2 x0 xs0 x2 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  rw [View.canon_unit_zero zero_offsets]
  simp only [View.readAt_eq_ld, harg1.read_unread, harg3.read_unread, harg5.read_unread,
    View.ld_unit_zero (S := S512x2048) zero_offsets, View.ld_unit_zero (S := S2048x2048) zero_offsets,
    View.ld_unit_zero (S := S1x2048) zero_offsets]

end Cert.KernelIdeal.RowTiles

end
-- ==== Proof.LibMatmulTransposed.lean ====
/-
  A matrix product whose right operand is contracted along its LAST axis — rows × contraction times
  columns × contraction, no batch axis: the product of `l` with the transpose of `r` —, read at an entry on the
  extended reals.  As a vector unit's `matmul` into a zero accumulator and as the host's `dot_general`, entry
  `(p, c)` is the sum over `k` of `l (p, k) · r (c, k)`.  Generic in the three extents.
-/
import Idealize.ShloMosaic.Lib.ValueIdx
import Idealize.ShloMosaic.PureOps.Ideal.Laws

noncomputable section

namespace Cert.LibMatmulT

open Idealize.ShloMosaic Idealize.ShloMosaic.ValueIdx
open scoped BigOperators

theorem tr_rank (M K N : ℕ) : (DotDims.transposedRhs M K N).contr.rank = 1 := rfl
theorem tr_size (M K N : ℕ) : (DotDims.transposedRhs M K N).contr.size ⟨0, by rw [tr_rank]; exact Nat.one_pos⟩ = K := rfl

/-- The left operand is read in the entry's row. -/
theorem tr_lhs0 (M K N : ℕ) (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil), dif_pos (show (0 : Fin 2) ∈ (DotDims.transposedRhs M K N).lhsNonContracting from List.mem_singleton.mpr rfl)]
  rfl

/-- The right operand is read in the row numbered by the entry's column. -/
theorem tr_rhs0 (M K N : ℕ) (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil), dif_pos (show (0 : Fin 2) ∈ (DotDims.transposedRhs M K N).rhsNonContracting from List.mem_singleton.mpr rfl)]
  rfl

/-- Both operands are read, along their last axis, at the contraction's one coordinate. -/
theorem tr_lhs1 (M K N : ℕ) (j : (⟨2, ![M, N]⟩ : Shape).Idx) (q : (DotDims.transposedRhs M K N).contr.Idx) :
    ((DotDims.transposedRhs M K N).lhsIdx j q 1).val = (q ⟨0, by rw [tr_rank]; exact Nat.one_pos⟩).val :=
  (DotDims.transposedRhs M K N).lhsIdx_val_of_single rfl j q

theorem tr_rhs1 (M K N : ℕ) (j : (⟨2, ![M, N]⟩ : Shape).Idx) (q : (DotDims.transposedRhs M K N).contr.Idx) :
    ((DotDims.transposedRhs M K N).rhsIdx j q 1).val = (q ⟨0, by rw [tr_rank]; exact Nat.one_pos⟩).val :=
  (DotDims.transposedRhs M K N).rhsIdx_val_of_single rfl j q

/-- The contraction of `l` with the transpose of `r`, re-indexed by the one contracted coordinate. -/
theorem tr_dot_sum (M K N : ℕ) (l : (⟨2, ![M, K]⟩ : Shape).Idx → EReal) (r : (⟨2, ![N, K]⟩ : Shape).Idx → EReal)
    (p : Fin M) (c : Fin N) :
    ∑ q : (DotDims.transposedRhs M K N).contr.Idx, l ((DotDims.transposedRhs M K N).lhsIdx (ix2 p c) q) * r ((DotDims.transposedRhs M K N).rhsIdx (ix2 p c) q)
      = ∑ k : Fin K, l (ix2 p k) * r (ix2 c k) := by
  rw [← Equiv.sum_comp (contrEquiv1 (DotDims.transposedRhs M K N) K (tr_rank M K N) (tr_size M K N)).symm]
  refine Finset.sum_congr rfl fun k _ => ?_
  have hk := contrEquiv1_symm_val (DotDims.transposedRhs M K N) K (tr_rank M K N) (tr_size M K N) k
  have el : (DotDims.transposedRhs M K N).lhsIdx (ix2 p c) ((contrEquiv1 (DotDims.transposedRhs M K N) K (tr_rank M K N) (tr_size M K N)).symm k) = ix2 p k :=
    funext fun a => Fin.ext (by
      match a with
      | ⟨0, _⟩ => exact tr_lhs0 M K N _ _
      | ⟨1, _⟩ => exact (tr_lhs1 M K N _ _).trans hk)
  have er : (DotDims.transposedRhs M K N).rhsIdx (ix2 p c) ((contrEquiv1 (DotDims.transposedRhs M K N) K (tr_rank M K N) (tr_size M K N)).symm k) = ix2 c k :=
    funext fun a => Fin.ext (by
      match a with
      | ⟨0, _⟩ => exact tr_rhs0 M K N _ _
      | ⟨1, _⟩ => exact (tr_rhs1 M K N _ _).trans hk)
  rw [el, er]

/-- A `tpu.matmul` with these dimension numbers into the zero splat, at an entry: row `p` of `l` against row `c` of `r`. -/
theorem matmul_zero_transposedRhs (M K N : ℕ) (prec : Option ContractPrecision) {φ₁ φ₂ : FTy}
    (l : FVec Ideal ⟨2, ![M, K]⟩ φ₁) (r : FVec Ideal ⟨2, ![N, K]⟩ φ₂) (p : Fin M) (c : Fin N) :
    FloatOps.matmul (DotDims.transposedRhs M K N) prec l r (constant ⟨2, ![M, N]⟩ .f32 0x00000000#32) (ix2 p c) = ∑ k : Fin K, l (ix2 p k) * r (ix2 c k) :=
  (Ideal.matmul_constant_zero_apply (DotDims.transposedRhs M K N) prec l r (ix2 p c)).trans (tr_dot_sum M K N l r p c)

/-- The host's `dot_general` with these dimension numbers, at an entry: the same sum. -/
theorem dotGeneral_transposedRhs (M K N : ℕ) (prec : Option ContractPrecision) (sched : HostSchedule) {φ₁ φ₂ : FTy}
    (l : FVec Ideal ⟨2, ![M, K]⟩ φ₁) (r : FVec Ideal ⟨2, ![N, K]⟩ φ₂) (p : Fin M) (c : Fin N) :
    FloatOps.dotGeneral (DotDims.transposedRhs M K N) prec sched l r (ix2 p c) = ∑ k : Fin K, l (ix2 p k) * r (ix2 c k) :=
  (Ideal.dotGeneral_apply (DotDims.transposedRhs M K N) prec sched l r (ix2 p c)).trans (tr_dot_sum M K N l r p c)

end Cert.LibMatmulT

end
-- ==== Proof.RowTilePayload.lean ====
/-
  The body's arithmetic on the extended reals, entry by entry.  A format change is the identity there and a shape
  cast to the same shape moves nothing, so the block stored into the scratch is the weight block itself, and entry
  (p, n) of the block stored into the output is the sum over k of (input rows) (p, k) times (scratch) (n, k) — the
  product contracts the last axis of both operands — plus entry n of the bias row, which the broadcast repeats on
  every row.
-/
import proofs.«155436_g2000605269542612_pallasbulk_1228_29_alg».proof.Proof.Gen.KernelIdeal.Skeleton
import proofs.«155436_g2000605269542612_pallasbulk_1228_29_alg».proof.Proof.LibMatmulTransposed
import Idealize.ShloMosaic.Lib.Pipeline.Value
import Idealize.ShloMosaic.Lib.ValueLayout
import Idealize.ShloMosaic.Lib.ValueIdx

noncomputable section

open Idealize.ShloMosaic Idealize.ShloMosaic.ValueIdx
open scoped BigOperators

namespace Cert.KernelIdeal.RowTiles

open Cert.KernelIdeal Cert.KernelIdeal.Gen

/-- The printed dimension numbers are those of a product with the transpose of the right operand. -/
theorem dims_transposed :
    dot_S512x2048_S2048x2048_S512x2048_1_1_0_0_n_n = DotDims.transposedRhs 512 2048 2048 := rfl

/-- The block stored into the scratch is the weight block. -/
theorem narrowed_weight (x1 : Vec Ideal S2048x2048 .f32) (j : S2048x2048.Idx) :
    k0_pay1 (F := Ideal) x1 j = x1 j := by
  unfold k0_pay1
  exact congrFun (shapeCast_self _ _) j

/-- Entry (p, n) of the block stored into the output. -/
theorem affine_entry (x0 : Vec Ideal S512x2048 .f32) (xs : Vec Ideal S2048x2048 .bf16) (x2 : Vec Ideal S1x2048 .f32)
    (p : Fin 512) (n : Fin 2048) :
    k0_pay2 (F := Ideal) x0 xs x2 (ix2 p n)
      = (∑ k : Fin 2048, x0 (ix2 p k) * xs (ix2 n k)) + x2 (ix2 (0 : Fin 1) n) := by
  unfold k0_pay2
  refine (addf_apply _ _ (ix2 p n)).trans ?_
  refine congrArg₂ (· + ·) ?_ ?_
  · rw [dims_transposed]
    refine (Cert.LibMatmulT.matmul_zero_transposedRhs (φ₁ := .bf16) (φ₂ := .bf16) 512 2048 2048 none _ xs p n).trans ?_
    refine Finset.sum_congr rfl fun k _ => ?_
    refine congrArg (· * xs (ix2 n k)) ?_
    exact (truncf_apply (φ := .f32) (ψ := .bf16) (shapeCast S512x2048 x0 shapeCasts_S512x2048_S512x2048) bitsLt_bf16_f32 (ix2 p k)).trans
      (congrFun (shapeCast_self x0 shapeCasts_S512x2048_S512x2048) (ix2 p k))
  · refine (broadcastTo_1b_ab_apply _ _ p n).trans ?_
    exact congrFun (shapeCast_self x2 _) (ix2 (0 : Fin 1) n)

end Cert.KernelIdeal.RowTiles

end
-- ==== Proof.RowTileBlocks.lean ====
/-
  The blocks the body is given, as entries of the arrays the grid runs over.  The input is cut into tiles of 512
  rows and point t is given tile t, so entry (p, k) of its block is entry (512 t + p, k) of the array; the weight and
  the bias row are given whole at every point.  A block's entry sits at block index times block size plus the
  coordinate inside the block, and the block indices are decided once over the eight points.
-/
import proofs.«155436_g2000605269542612_pallasbulk_1228_29_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.RowTiles

open Cert.KernelIdeal Cert.KernelIdeal.Gen

variable {F : FTy → Type} [FloatOps F]
variable (m : (ℓ : Loc nD τ sig) → Buf (Elt F) ℓ)

/-- The block indices of the three inputs at every point: the rows' tile moves with the point, the others stay. -/
theorem input_tiles : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = 0 ∧ win0_2.index t 1 = 0))

/-- Entry (p, k) of the rows' block at point t is entry (512 t + p, k) of the array of rows. -/
theorem rows_block (c : Dev nD) (t : Fin cfg0.N) (p : Fin 512) (k : Fin 2048) (r : Fin 4096)
    (hr : r.val = 512 * t.val + p.val) :
    (iblk m c 0 t : Vec F S512x2048 .f32) (ix2 p k) = (V m c main_v0 : S4096x2048.Idx → Elt F .f32) (ix2 r k) := by
  have hi := (input_tiles t).1
  unfold iblk
  rw [View.read_apply]
  show V m c main_v0 _ = V m c main_v0 _
  congr 1
  funext a
  apply Fin.ext
  match a with
  | ⟨0, _⟩ => show win0_0.index t 0 * 512 + 1 * p.val = r.val; rw [hi.1, hr]; omega
  | ⟨1, _⟩ => show win0_0.index t 1 * 2048 + 1 * k.val = k.val; rw [hi.2]; omega

/-- The weight's block at every point is the weight. -/
theorem weight_block (c : Dev nD) (t : Fin cfg0.N) (j : S2048x2048.Idx) :
    (iblk m c 1 t : Vec F S2048x2048 .f32) j = (V m c main_arg1 : S2048x2048.Idx → Elt F .f32) j := by
  have hi := (input_tiles t).2.1
  unfold iblk
  rw [View.read_apply]
  show V m c main_arg1 _ = V m c main_arg1 _
  congr 1
  funext a
  apply Fin.ext
  match a with
  | ⟨0, _⟩ => show win0_1.index t 0 * 2048 + 1 * (j 0).val = (j 0).val; rw [hi.1]; omega
  | ⟨1, _⟩ => show win0_1.index t 1 * 2048 + 1 * (j 1).val = (j 1).val; rw [hi.2]; omega

/-- The bias row's block at every point is the bias row. -/
theorem bias_block (c : Dev nD) (t : Fin cfg0.N) (j : S1x2048.Idx) :
    (iblk m c 2 t : Vec F S1x2048 .f32) j = (V m c main_v1 : S1x2048.Idx → Elt F .f32) j := by
  have hi := (input_tiles t).2.2
  unfold iblk
  rw [View.read_apply]
  show V m c main_v1 _ = V m c main_v1 _
  congr 1
  funext a
  apply Fin.ext
  match a with
  | ⟨0, _⟩ => show win0_2.index t 0 * 1 + 1 * (j 0).val = (j 0).val; rw [hi.1]; omega
  | ⟨1, _⟩ => show win0_2.index t 1 * 2048 + 1 * (j 1).val = (j 1).val; rw [hi.2]; omega

end Cert.KernelIdeal.RowTiles

end
-- ==== Proof.AffineRows.lean ====
/-
  The map both programs compute, on the extended reals.  For a [4096, 2048] array `x`, a [2048, 2048] weight `w`
  and a [1, 2048] row `b`, entry (r, n) of the result is the sum over k of x (r, k) · w (n, k), plus b (0, n): `x`
  times the transpose of `w`, with the bias added on every row.  The [8, 512, 2048] argument reaches that array,
  the [2048] bias reaches its row, and the result leaves, through reshapes that keep the row-major position; they are
  the same three reshapes in both programs, so they are carried along and never opened.
-/
import Idealize.ShloMosaic.Lib.ValueIdx
import Idealize.ShloMosaic.PureOps.Ideal

noncomputable section

namespace Cert.AffineRows

open Idealize.ShloMosaic Idealize.ShloMosaic.ValueIdx
open scoped BigOperators

/-- The argument as given, the same array as rows, the weight, the bias as given and as one row. -/
abbrev SBatch : Shape := ⟨3, ![8, 512, 2048]⟩
abbrev SRows : Shape := ⟨2, ![4096, 2048]⟩
abbrev SWeight : Shape := ⟨2, ![2048, 2048]⟩
abbrev SBias : Shape := ⟨1, ![2048]⟩
abbrev SBiasRow : Shape := ⟨2, ![1, 2048]⟩

/-- Entry (r, n): row `r` of `x` against row `n` of `w`, plus the bias's entry `n`. -/
def rows (x : SRows.Idx → EReal) (w : SWeight.Idx → EReal) (b : SBiasRow.Idx → EReal) : SRows.Idx → EReal :=
  fun j => (∑ k : Fin 2048, x (ix2 (j 0) k) * w (ix2 (j 1) k)) + b (ix2 (0 : Fin 1) (j 1))

theorem rows_apply (x : SRows.Idx → EReal) (w : SWeight.Idx → EReal) (b : SBiasRow.Idx → EReal) (r : Fin 4096) (n : Fin 2048) :
    rows x w b (ix2 r n) = (∑ k : Fin 2048, x (ix2 r k) * w (ix2 n k)) + b (ix2 (0 : Fin 1) n) := rfl

/-- The whole map, the three reshapes included. -/
def result (x : SBatch.Idx → EReal) (w : SWeight.Idx → EReal) (b : SBias.Idx → EReal)
    (hx : SBatch.ShapeCasts SRows) (hb : SBias.ShapeCasts SBiasRow) (ho : SRows.ShapeCasts SBatch) : SBatch.Idx → EReal :=
  shapeCast SBatch (rows (shapeCast SRows x hx) w (shapeCast SBiasRow b hb)) ho

end Cert.AffineRows

end
-- ==== Proof.RowTileInvariant.lean ====
/-
  What the output's block and the carried scratch hold after each grid point.  The scratch is filled with the weight at
  the first point and never written again, so after every point it holds the weight; the output's block after point n
  is therefore tile n of the affine map of the rows: entry (p, q) is the sum over k of rows (512 n + p, k) times
  weight (q, k), plus bias (0, q).  By induction on the point: the first point is the case that stores the scratch,
  every later one the case that only reads it.
-/
import proofs.«155436_g2000605269542612_pallasbulk_1228_29_alg».proof.Proof.RowTilePieces
import proofs.«155436_g2000605269542612_pallasbulk_1228_29_alg».proof.Proof.RowTilePayload
import proofs.«155436_g2000605269542612_pallasbulk_1228_29_alg».proof.Proof.RowTileBlocks
import proofs.«155436_g2000605269542612_pallasbulk_1228_29_alg».proof.Proof.AffineRows

noncomputable section

open Idealize.ShloMosaic Idealize.ShloMosaic.TcCoe Idealize.SL.Sem Idealize.ShloMosaic.ValueIdx
open scoped BigOperators

namespace Cert.KernelIdeal.RowTiles

open Cert.KernelIdeal Cert.KernelIdeal.Gen

variable (m : (ℓ : Loc nD τ sig) → Buf (Elt Ideal) ℓ)

/-- A stored output block whose operands are tile t of the rows, the weight and the bias row is tile t of the
    affine map. -/
theorem tile_entry (x0 : Vec Ideal S512x2048 .f32) (xs : Vec Ideal S2048x2048 .bf16) (x2 : Vec Ideal S1x2048 .f32)
    (A : Cert.AffineRows.SRows.Idx → EReal) (W : Cert.AffineRows.SWeight.Idx → EReal)
    (B : Cert.AffineRows.SBiasRow.Idx → EReal) (t : ℕ)
    (h0 : ∀ (p : Fin 512) (k : Fin 2048) (r : Fin 4096), r.val = 512 * t + p.val → x0 (ix2 p k) = A (ix2 r k))
    (h1 : ∀ j : S2048x2048.Idx, xs j = W j)
    (h2 : ∀ j : S1x2048.Idx, x2 j = B j)
    (p : Fin 512) (q : Fin 2048) (r : Fin 4096) (hr : r.val = 512 * t + p.val) :
    k0_pay2 (F := Ideal) x0 xs x2 (ix2 p q) = Cert.AffineRows.rows A W B (ix2 r q) := by
  refine (affine_entry x0 xs x2 p q).trans ?_
  refine ((Cert.AffineRows.rows_apply A W B r q).trans ?_).symm
  refine congrArg₂ (· + ·) (Finset.sum_congr rfl fun k _ => ?_) (h2 _).symm
  exact congrArg₂ (· * ·) (h0 p k r hr).symm (h1 _).symm

/-- The region-entry arrays the grid runs over, at their literal shapes. -/
abbrev rowsIn (c : Dev nD) : Cert.AffineRows.SRows.Idx → EReal := (V m c main_v0 : S4096x2048.Idx → Elt Ideal .f32)
abbrev weightIn (c : Dev nD) : Cert.AffineRows.SWeight.Idx → EReal := (V m c main_arg1 : S2048x2048.Idx → Elt Ideal .f32)
abbrev biasIn (c : Dev nD) : Cert.AffineRows.SBiasRow.Idx → EReal := (V m c main_v1 : S1x2048.Idx → Elt Ideal .f32)

/-- After point n the scratch holds the weight and the output's block holds tile n of the affine map. -/
theorem after_point (c : Dev nD) : ∀ (n : ℕ) (h : n < cfg0.N),
    (∀ j : S2048x2048.Idx, (outsAt0 m c n h).2 j = weightIn m c j)
    ∧ ∀ (p : Fin 512) (q : Fin 2048) (r : Fin 4096), r.val = 512 * n + p.val →
        (outsAt0 m c n h).1 (ix2 p q) = Cert.AffineRows.rows (rowsIn m c) (weightIn m c) (biasIn m c) (ix2 r q)
  | 0, h => by
    rw [outsAt0_A m c ⟨0, h⟩ rfl]
    dsimp only
    rw [scratch_first, out_first]
    have hw : ∀ j : S2048x2048.Idx, k0_pay1 (F := Ideal) (iblk m c 1 ⟨0, h⟩) j = weightIn m c j :=
      fun j => (narrowed_weight _ j).trans (weight_block m c ⟨0, h⟩ j)
    exact ⟨hw, fun p q r hr => tile_entry _ _ _ (rowsIn m c) (weightIn m c) (biasIn m c) 0
      (fun p k r hr => rows_block m c ⟨0, h⟩ p k r hr) hw (fun j => bias_block m c ⟨0, h⟩ j) p q r hr⟩
  | n + 1, h => by
    have h8 : n + 1 < 8 := lt_of_lt_of_eq h (show cfg0.N = 8 from N_0)
    have hB : ¬(⟨n + 1, h⟩ : Fin cfg0.N).val % 8 = 0 := by dsimp only; omega
    have ih : ∀ j : S2048x2048.Idx, (outsAt0 m c n (Nat.lt_of_succ_lt h)).2 j = weightIn m c j :=
      (after_point c n (Nat.lt_of_succ_lt h)).1
    rw [outsAt0_B m c ⟨n + 1, h⟩ hB]
    dsimp only
    rw [out_later]
    unfold sout0_B_0
    exact ⟨ih, fun p q r hr => tile_entry _ _ _ (rowsIn m c) (weightIn m c) (biasIn m c) (n + 1)
      (fun p k r hr => rows_block m c ⟨n + 1, h⟩ p k r hr) ih (fun j => bias_block m c ⟨n + 1, h⟩ j) p q r hr⟩

end Cert.KernelIdeal.RowTiles

end
-- ==== Proof.RowTileArray.lean ====
/-
  From the tiles to the array.  Every point writes its output block back, and point t's block is rows 512 t to
  512 t + 511 of the result array; the eight tiles cover its 4096 rows (row r lies in tile r / 512).  What point t
  writes back is tile t of the affine map of the rows, so after the last point the result array holds the affine
  map.
-/
import proofs.«155436_g2000605269542612_pallasbulk_1228_29_alg».proof.Proof.RowTileInvariant
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.RowTiles

open Cert.KernelIdeal Cert.KernelIdeal.Gen

variable (m : (ℓ : Loc nD τ sig) → Buf (Elt Ideal) ℓ)

/-- The output's block index at every point: tile t of the rows, the one tile of the columns. -/
theorem output_tiles : ∀ t : Fin cfg0.N, win0_3.index t 0 = t.val ∧ win0_3.index t 1 = 0 :=
  (by decide +kernel : ∀ t : Fin grid0.N, win0_3.index t 0 = t.val ∧ win0_3.index t 1 = 0)

/-- The affine map of the region-entry arrays, as contents of the result array. -/
abbrev affineOut (c : Dev nD) : S4096x2048.Idx → Elt Ideal .f32 :=
  Cert.AffineRows.rows (rowsIn m c) (weightIn m c) (biasIn m c)

/-- What point t writes back is block t of the affine map. -/
theorem written_back (c : Dev nD) (t : Fin cfg0.N) :
    (dats m 0 c).flushed 3 t = ((cfg0.win 3).blk t).view.read (Elt Ideal) (affineOut m c) := by
  show (cfg0.win 3).cut (grid0.coords t) ((dats m 0 c).after 3 t) = _
  rw [after0_3]
  obtain ⟨e0, e1⟩ := output_tiles t
  have h8 : t.val < 8 := lt_of_lt_of_eq t.isLt (show cfg0.N = 8 from N_0)
  funext y
  obtain ⟨p, q, rfl⟩ : ∃ (p : Fin 512) (q : Fin 2048), y = ix2 p q := ⟨y 0, y 1, eq_ix2 y⟩
  show (outsAt0 m c t.val t.isLt).1 (ix2 p q) = affineOut m c (((cfg0.win 3).blk t).view.emb (ix2 p q))
  have hp : p.val < 512 := p.isLt
  refine ((after_point m c t.val t.isLt).2 p q ⟨512 * t.val + p.val, by omega⟩ rfl).trans ?_
  refine congrArg (affineOut m c) (funext fun a => Fin.ext ?_)
  match a with
  | ⟨0, _⟩ => show 512 * t.val + p.val = win0_3.index t 0 * 512 + 1 * p.val; rw [e0]; omega
  | ⟨1, _⟩ => show q.val = win0_3.index t 1 * 2048 + 1 * q.val; rw [e1]; omega

/-- An entry of the result array lies in point t's block iff each coordinate is in the block's range. -/
theorem mem_tile (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v2).slice (win0_3.rect t)).set ↔ _
  rw [View.set_slice_whole, Rect.mem_set_unit]
  exact Iff.rfl

/-- Every entry of the result array is in some point's block: row r is in tile r / 512. -/
theorem tiles_cover (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  have hN : (i 0).val / 512 < cfg0.N := lt_of_lt_of_eq (by omega : (i 0).val / 512 < 8) (show cfg0.N = 8 from N_0).symm
  obtain ⟨e0, e1⟩ := output_tiles ⟨(i 0).val / 512, hN⟩
  refine ⟨⟨(i 0).val / 512, hN⟩, flush0_3 _, ?_⟩
  rw [mem_tile]
  intro a
  match a with
  | ⟨0, _⟩ =>
    show win0_3.index ⟨(i 0).val / 512, hN⟩ 0 * 512 ≤ (i 0).val ∧ (i 0).val < win0_3.index ⟨(i 0).val / 512, hN⟩ 0 * 512 + 512
    rw [e0]; dsimp only; omega
  | ⟨1, _⟩ =>
    show win0_3.index ⟨(i 0).val / 512, hN⟩ 1 * 2048 ≤ (i 1).val ∧ (i 1).val < win0_3.index ⟨(i 0).val / 512, hN⟩ 1 * 2048 + 2048
    rw [e1]; omega

/-- After the last point the result array holds the affine map of the region-entry arrays. -/
theorem array_after (c : Dev nD) : (dats m 0 c).arrAt 3 cfg0.N = affineOut m c :=
  (dats m 0 c).arrAt_eq_of_cover 3 (affineOut m c) (fun t _ => written_back m c t) tiles_cover

end Cert.KernelIdeal.RowTiles

end
-- ==== Proof.RowTileRun.lean ====
/-
  The run, read.  The two reshapes before the grid hand it the argument as 4096 rows and the bias as one row; the
  reshape after it hands the result array back as [8, 512, 2048].  So the result ends at the affine map of the
  reshaped arguments, reshaped back, and the three arguments end as launched.
-/
import proofs.«155436_g2000605269542612_pallasbulk_1228_29_alg».proof.Proof.RowTileArray
import Idealize.ShloMosaic.Lib.Pipeline.FrameSuffix
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.RowTiles

open Cert.KernelIdeal Cert.KernelIdeal.Gen

variable (m : (ℓ : Loc nD τ sig) → Buf (Elt Ideal) ℓ) (ρ : Dev nD → PrngReg)

/-- The grid finds the argument reshaped to rows. -/
theorem rows_entry (c : Dev nD) :
    rowsIn m c = shapeCast S4096x2048 (m ((c.tc : Thread nD τ).loc main_arg0)) shapeCasts_S8x512x2048_S4096x2048 := by
  show StableHlo.after hostOps0 (fun b => m (c, b)) (Proc.devRef .tc main_v0) = _
  after_results
  rfl

/-- It finds the bias reshaped to one row. -/
theorem bias_entry (c : Dev nD) :
    biasIn m c = shapeCast S1x2048 (m ((c.tc : Thread nD τ).loc main_arg2)) shapeCasts_S2048_S1x2048 := by
  show StableHlo.after hostOps0 (fun b => m (c, b)) (Proc.devRef .tc main_v1) = _
  after_results
  rfl

/-- It finds the weight as launched. -/
theorem weight_entry (c : Dev nD) : weightIn m c = m ((c.tc : Thread nD τ).loc main_arg1) := V_main_arg1 m c

/-- The reshape after the grid leaves the result array reshaped. -/
theorem tail_value (c : Dev nD) :
    Pipeline.afterTail₀ cfgs (dats m) 0 (V0 m) [hostOps1] c main_v3
      = shapeCast S8x512x2048 (affineOut m c) shapeCasts_S4096x2048_S8x512x2048 := by
  unfold Pipeline.afterTail₀
  show StableHlo.after hostOps1 _ (Proc.devRef .tc main_v3) = _
  after_results
  exact congrArg (fun x => shapeCast S8x512x2048 x shapeCasts_S4096x2048_S8x512x2048)
    ((Pipeline.withArrays_arr spec0 launch0.win.arr_inj c _ _ 3).trans (array_after m c))

/-- The run of @main: the result at the affine map of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v3) = Cert.AffineRows.result (m ((c.tc : Thread nD τ).loc main_arg0)) (m ((c.tc : Thread nD τ).loc main_arg1)) (m ((c.tc : Thread nD τ).loc main_arg2)) shapeCasts_S8x512x2048_S4096x2048 shapeCasts_S2048_S1x2048 shapeCasts_S4096x2048_S8x512x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v3 (Pipeline.mem_restRefs_of main_v3 (by decide) (by decide))).trans
        ((tail_value m c).trans (by
          unfold Cert.AffineRows.result affineOut
          rw [rows_entry, bias_entry, weight_entry])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RowTiles

end
-- ==== Proof.AccBody.lean ====
/-
  What one run of the body leaves, as values.  The body adds one block product to a 256 × 256 accumulator: at the
  first block of a run of four it first sets the accumulator to zero, at the last it also writes the accumulator plus
  the bias row to the output tile.  Each store covers its whole buffer and each load reads a whole buffer, so what a
  buffer holds after the body is the last store's payload, and a load after a store reads that payload.
  Generic in the float instance.
-/
import proofs.«155436_g2000605269542612_pallasbulk_1228_29_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.ReferenceIdeal.AccBody

open Cert.ReferenceIdeal Cert.ReferenceIdeal.Gen

variable {F : FTy → Type} [FloatOps F]

theorem hz : (![0, 0] : Fin 2 → Nat) = fun _ => 0 := funext fun a => by fin_cases a <;> rfl

/-- First block of a run: the accumulator ends at zero plus the block product. -/
theorem acc_first (c : Dev nD) (i : grid0.Coords) (a3 : Memref sig .tc .vmem S256x512 .f32) (h3 : a3.IsWhole) (a4 : Memref sig .tc .vmem S256x512 .f32) (h4 : a4.IsWhole) (a5 : Memref sig .tc .vmem S1x256 .f32) (h5 : a5.IsWhole) (a6 : Memref sig .tc .vmem S256x256 .f32) (h6 : a6.IsWhole) (a7 : Memref sig .tc .vmem S256x256 .f32) (h7 : a7.IsWhole) (hc0 : cond0_0 i) (hc1 : ¬cond0_1 i)
    (x0 x1 : Vec F S256x512 .f32) (x2 : Vec F S1x256 .f32) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S256x256) hz, View.readCov_unit_zero (S := S256x256) _ hz]
  simp only [View.readAt_eq_ld, h3.read_unread, h4.read_unread, View.ld_unit_zero (S := S256x512) hz]

/-- A middle block: the accumulator the point before left, plus the block product. -/
theorem acc_middle (c : Dev nD) (i : grid0.Coords) (a3 : Memref sig .tc .vmem S256x512 .f32) (h3 : a3.IsWhole) (a4 : Memref sig .tc .vmem S256x512 .f32) (h4 : a4.IsWhole) (a5 : Memref sig .tc .vmem S1x256 .f32) (h5 : a5.IsWhole) (a6 : Memref sig .tc .vmem S256x256 .f32) (h6 : a6.IsWhole) (a7 : Memref sig .tc .vmem S256x256 .f32) (h7 : a7.IsWhole) (hc0 : ¬cond0_0 i) (hc1 : ¬cond0_1 i)
    (x0 x1 : Vec F S256x512 .f32) (x2 : Vec F S1x256 .f32) (xs0 : Vec F S256x256 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S256x256) hz, View.ld_unit_zero (S := S256x512) hz]

/-- The last block: the accumulator again takes the block product, -/
theorem acc_last (c : Dev nD) (i : grid0.Coords) (a3 : Memref sig .tc .vmem S256x512 .f32) (h3 : a3.IsWhole) (a4 : Memref sig .tc .vmem S256x512 .f32) (h4 : a4.IsWhole) (a5 : Memref sig .tc .vmem S1x256 .f32) (h5 : a5.IsWhole) (a6 : Memref sig .tc .vmem S256x256 .f32) (h6 : a6.IsWhole) (a7 : Memref sig .tc .vmem S256x256 .f32) (h7 : a7.IsWhole) (hc0 : ¬cond0_0 i) (hc1 : cond0_1 i)
    (x0 x1 : Vec F S256x512 .f32) (x2 : Vec F S1x256 .f32) (xs0 : Vec F S256x256 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S256x256) hz, View.ld_unit_zero (S := S256x512) hz]

/-- and the output tile is that accumulator plus the bias row. -/
theorem out_last (c : Dev nD) (i : grid0.Coords) (a3 : Memref sig .tc .vmem S256x512 .f32) (h3 : a3.IsWhole) (a4 : Memref sig .tc .vmem S256x512 .f32) (h4 : a4.IsWhole) (a5 : Memref sig .tc .vmem S1x256 .f32) (h5 : a5.IsWhole) (a6 : Memref sig .tc .vmem S256x256 .f32) (h6 : a6.IsWhole) (a7 : Memref sig .tc .vmem S256x256 .f32) (h7 : a7.IsWhole) (hc0 : ¬cond0_0 i) (hc1 : cond0_1 i)
    (x0 x1 : Vec F S256x512 .f32) (x2 : Vec F S1x256 .f32) (xs0 : Vec F S256x256 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S256x256) _ hz]
  simp only [View.readAt_eq_ld, h3.read_unread, h4.read_unread, h5.read_unread, h7.read_unread, View.ld_unit_zero (S := S256x256) hz, View.ld_unit_zero (S := S256x512) hz, View.ld_unit_zero (S := S1x256) hz]

end Cert.ReferenceIdeal.AccBody

end
-- ==== Proof.AccEntries.lean ====
/-
  The body's three values read at an entry, on the extended reals.  The zero block is zero everywhere; one step
  adds to the accumulator's entry (p, q) the sum over the 512 positions k of the block of x's row p at k times the block of
  w's row q at k (the contraction runs along the last axis of both blocks); the last step adds the bias row's entry q.
-/
import proofs.«155436_g2000605269542612_pallasbulk_1228_29_alg».proof.Proof.Gen.ReferenceIdeal.Skeleton
import proofs.«155436_g2000605269542612_pallasbulk_1228_29_alg».proof.Proof.LibMatmulTransposed
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.ReferenceIdeal.AccEntries

open Cert.ReferenceIdeal Cert.ReferenceIdeal.Gen

/-- The body's contraction: the left block times the transpose of the right block. -/
theorem contraction_eq : dot_S256x512_S256x512_S256x256_1_1_0_0_n_n = DotDims.transposedRhs 256 512 256 := rfl

/-- The block the first step starts from is zero at every entry. -/
theorem zero_apply (p q : Fin 256) : k0_pay1 (F := Ideal) (ix2 p q) = 0 := by
  show shapeCast S256x256 (broadcast S256x256 (Scalar.ofBits (F := Ideal) .f32 0x00000000#32)) shapeCasts_S256x256_S256x256 (ix2 p q) = _
  rw [shapeCast_self]
  exact Ideal.ofBits_zero_f32

/-- One step: the accumulator's entry plus the block product's entry. -/
theorem step_apply (acc : FVec Ideal S256x256 .f32) (x0 x1 : FVec Ideal S256x512 .f32) (p q : Fin 256) :
    k0_pay2 (F := Ideal) acc x0 x1 (ix2 p q) = acc (ix2 p q) + ∑ k : Fin 512, x0 (ix2 p k) * x1 (ix2 q k) := by
  show shapeCast S256x256 (addf acc (matmul dot_S256x512_S256x512_S256x256_1_1_0_0_n_n none (shapeCast S256x512 x0 shapeCasts_S256x512_S256x512) x1 (constant S256x256 .f32 0x00000000#32))) shapeCasts_S256x256_S256x256 (ix2 p q) = _
  rw [shapeCast_self, shapeCast_self]
  exact congrArg (acc (ix2 p q) + ·) (Cert.LibMatmulT.matmul_zero_transposedRhs 256 512 256 none x0 x1 p q)

/-- The first step of a run starts from the zero block: the block product alone. -/
theorem first_apply (x0 x1 : FVec Ideal S256x512 .f32) (p q : Fin 256) :
    k0_pay2 (F := Ideal) (k0_pay1 (F := Ideal)) x0 x1 (ix2 p q) = ∑ k : Fin 512, x0 (ix2 p k) * x1 (ix2 q k) := by
  rw [step_apply, zero_apply, zero_add]

/-- The last step's output: the accumulator's entry plus the bias row's entry in that column. -/
theorem bias_apply (acc : FVec Ideal S256x256 .f32) (x2 : FVec Ideal S1x256 .f32) (p q : Fin 256) :
    k0_pay3 (F := Ideal) acc x2 (ix2 p q) = acc (ix2 p q) + x2 (ix2 (0 : Fin 1) q) := by
  show addf acc (broadcastTo S256x256 (shapeCast S1x256 x2 shapeCasts_S1x256_S1x256) broadcasts_S1x256_S256x256) (ix2 p q) = _
  rw [shapeCast_self]
  exact congrArg (acc (ix2 p q) + ·) (broadcastTo_1b_ab_apply x2 broadcasts_S1x256_S256x256 p q)

end Cert.ReferenceIdeal.AccEntries

end
-- ==== Proof.AccGrid.lean ====
/-
  Where each window's block sits at each of the 512 grid points.  Point t stands for the triple (i, j, κ) with
  i = t / 32 (the row tile of x and of the output), j = t / 4 mod 8 (the row tile of w, which is the column tile of the
  output and of the bias row) and κ = t mod 4 (the block along the contracted axis): the last coordinate moves
  fastest.  Decided once over the grid.
-/
import proofs.«155436_g2000605269542612_pallasbulk_1228_29_alg».proof.Proof.Gen.ReferenceIdeal.Frame

noncomputable section

open Idealize.ShloMosaic

namespace Cert.ReferenceIdeal.AccGrid

open Cert.ReferenceIdeal Cert.ReferenceIdeal.Gen

/-- x's window: row tile i, contraction block κ. -/
theorem index_x : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)

/-- w's window: row tile j, contraction block κ. -/
theorem index_w : ∀ t : Fin cfg0.N, win0_1.index t (0 : Fin 2) = t.val / 4 % 8 ∧ win0_1.index t (1 : Fin 2) = t.val % 4 :=
  (by decide +kernel : ∀ t : Fin grid0.N, win0_1.index t (0 : Fin 2) = t.val / 4 % 8 ∧ win0_1.index t (1 : Fin 2) = t.val % 4)

/-- The bias row's window: its one row, column tile j. -/
theorem index_b : ∀ t : Fin cfg0.N, win0_2.index t (0 : Fin 2) = 0 ∧ win0_2.index t (1 : Fin 2) = t.val / 4 % 8 :=
  (by decide +kernel : ∀ t : Fin grid0.N, win0_2.index t (0 : Fin 2) = 0 ∧ win0_2.index t (1 : Fin 2) = t.val / 4 % 8)

/-- The output's window: row tile i, column tile j. -/
theorem index_o : ∀ t : Fin cfg0.N, win0_3.index t (0 : Fin 2) = t.val / 32 ∧ win0_3.index t (1 : Fin 2) = t.val / 4 % 8 :=
  (by decide +kernel : ∀ t : Fin grid0.N, win0_3.index t (0 : Fin 2) = t.val / 32 ∧ win0_3.index t (1 : Fin 2) = t.val / 4 % 8)

theorem lt_N (t : Fin cfg0.N) : t.val < 512 := lt_of_lt_of_eq t.isLt N_0

end Cert.ReferenceIdeal.AccGrid

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibRowBlocks.lean ====
/-
  Rows of a matrix added up block by block, with every position a natural number.

  A kernel that walks a matrix in column blocks keeps, per row, a running total of what it has seen so far. To say
  "after block `j` the total is the sum over the first `b * (j + 1)` columns" without carrying bounds proofs
  through the induction, an array is read at natural-number coordinates (`atNat`: the entry when both coordinates are
  in range, zero otherwise) and partial sums run over `Finset.range`. Only addition's commutative-monoid laws are used,
  so everything holds on the extended reals with no finiteness assumption.

  * `atNat`, `atNat_of_lt`: the total read, and that it is the entry in range;
  * `sum_range_block`: the first `b * (j + 1)` terms are the first `b * j` terms plus block `j`'s `b` terms;
  * `sum_range_fin`: a sum of total reads over `range n` is the sum of the entries over `Fin n`;
  * `laneSum_column_apply`: a sum along the lanes kept as a column, at a row, is the sum of the row's entries;
  * `sum_idx_column`, `sum_idx_rows`: a sum over every index of an `[a, 1]` or `[a, b]` array, row by row.
-/
import Idealize.ShloMosaic.Lib.ValueIdx
import Idealize.ShloMosaic.Lib.Pipeline.Value
import Idealize.ShloMosaic.PureOps.Ideal.Laws
import proofs.«155436_g2000605269542612_pallasbulk_1228_29_alg».proof.Proof.LibColumns

noncomputable section

namespace Cert.RowBlocks

open Idealize.ShloMosaic Idealize.ShloMosaic.ValueIdx
open scoped BigOperators

/-- An `[n0, n1]` array read at natural-number coordinates: the entry when both are in range, zero otherwise. -/
def atNat {n0 n1 : ℕ} (X : (⟨2, ![n0, n1]⟩ : Shape).Idx → EReal) (r c : ℕ) : EReal :=
  if h : r < n0 ∧ c < n1 then X (ix2 ⟨r, h.1⟩ ⟨c, h.2⟩) else 0

theorem atNat_of_lt {n0 n1 : ℕ} (X : (⟨2, ![n0, n1]⟩ : Shape).Idx → EReal) {r c : ℕ} (hr : r < n0) (hc : c < n1) :
    atNat X r c = X (ix2 ⟨r, hr⟩ ⟨c, hc⟩) := dif_pos ⟨hr, hc⟩

theorem atNat_fin {n0 n1 : ℕ} (X : (⟨2, ![n0, n1]⟩ : Shape).Idx → EReal) (r : Fin n0) (c : Fin n1) :
    atNat X r.val c.val = X (ix2 r c) := atNat_of_lt X r.isLt c.isLt

/-- The first `b * (j + 1)` terms of a sequence are its first `b * j` terms and then the `b` terms of block `j`. -/
theorem sum_range_block {M : Type*} [AddCommMonoid M] (f : ℕ → M) (b j : ℕ) :
    ∑ c ∈ Finset.range (b * (j + 1)), f c = ∑ c ∈ Finset.range (b * j), f c + ∑ q : Fin b, f (b * j + q.val) := by
  rw [Nat.mul_succ, Finset.sum_range_add, Finset.sum_range fun x => f (b * j + x)]

/-- A sum over `range n` of a function that is `g` on the positions below `n` is the sum of `g` over `Fin n`. -/
theorem sum_range_fin {M : Type*} [AddCommMonoid M] (n : ℕ) (f : ℕ → M) (g : Fin n → M) (h : ∀ k : Fin n, f k.val = g k) :
    ∑ c ∈ Finset.range n, f c = ∑ k : Fin n, g k := by
  rw [Finset.sum_range]; exact Finset.sum_congr rfl fun k _ => h k

/-- A sum along the lanes, kept as a column: at row `p` it is the sum of the row's entries. -/
theorem laneSum_column_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src acc h hφ hacc) hc (ix2 p u) = ∑ k : Fin b, src (ix2 p k) :=
  (Cert.Columns.shapeCast_a_a1_apply _ hc p u).trans
    ((Ideal.multiReduction_add_single src acc h hφ hacc (ix1 p)).trans
      (Finset.sum_congr rfl fun k _ => congrArg src (funext fun d => Fin.ext (by
        match d with
        | ⟨0, _⟩ => rfl
        | ⟨1, _⟩ => rfl))))

/-- A sum over every index of an `[a, 1]` column is the sum of its `a` entries. -/
theorem sum_idx_column {M : Type*} [AddCommMonoid M] {a : ℕ} (f : (⟨2, ![a, 1]⟩ : Shape).Idx → M) :
    ∑ j : (⟨2, ![a, 1]⟩ : Shape).Idx, f j = ∑ r : Fin a, f (ix2 r (0 : Fin 1)) := by
  rw [sum_idx2]
  exact Finset.sum_congr rfl fun r _ => Fin.sum_univ_one _

/-- A sum over every index of an `[a, b]` array is the sum over the rows of the sums along each row. -/
theorem sum_idx_rows {M : Type*} [AddCommMonoid M] {a b : ℕ} (f : (⟨2, ![a, b]⟩ : Shape).Idx → M) :
    ∑ j : (⟨2, ![a, b]⟩ : Shape).Idx, f j = ∑ r : Fin a, ∑ k : Fin b, f (ix2 r k) := sum_idx2 f

end Cert.RowBlocks

end
-- ==== Proof.AccBlocks.lean ====
/-
  The input blocks the body is run on, read at an entry.  At point t = (i, j, κ) the block of x holds rows
  256 i … 256 i + 255 and positions 512 κ … 512 κ + 511 of x; the block of w the same positions of rows 256 j … of w; the
  block of the bias row its entries 256 j … 256 j + 255.  Each is the array, as the region finds it, read at the
  block's offset plus the coordinate inside the block.
-/
import proofs.«155436_g2000605269542612_pallasbulk_1228_29_alg».proof.Proof.AccGrid
import proofs.«155436_g2000605269542612_pallasbulk_1228_29_alg».proof.Proof.LibRowBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ReferenceIdeal.AccBlocks

open Cert.ReferenceIdeal Cert.ReferenceIdeal.Gen Cert.ReferenceIdeal.AccGrid Cert.RowBlocks

section anyValues

variable {F : FTy → Type} [FloatOps F]
variable (m : (ℓ : Loc nD τ sig) → Buf (Elt F) ℓ)

/-- x's block at (p, k) is x at (256 i + p, 512 κ + k). -/
theorem x_block (c : Dev nD) (t : Fin cfg0.N) (p : Fin 256) (k : Fin 512)
    (hr : 256 * (t.val / 32) + p.val < 4096) (hk : 512 * (t.val % 4) + k.val < 2048) :
    (iblk m c 0 t : Vec F S256x512 .f32) (ix2 p k) = (V m c main_v0 : Vec F S4096x2048 .f32) (ix2 ⟨_, hr⟩ ⟨_, hk⟩) := by
  unfold iblk
  rw [View.read_apply]
  show V m c main_v0 _ = V m c main_v0 _
  refine congrArg (V m c main_v0) (funext fun a => Fin.ext ?_)
  match a with
  | ⟨0, _⟩ => show win0_0.index t 0 * 256 + 1 * p.val = 256 * (t.val / 32) + p.val; rw [(index_x t).1]; omega
  | ⟨1, _⟩ => show win0_0.index t 1 * 512 + 1 * k.val = 512 * (t.val % 4) + k.val; rw [(index_x t).2]; omega

/-- w's block at (q, k) is w at (256 j + q, 512 κ + k). -/
theorem w_block (c : Dev nD) (t : Fin cfg0.N) (q : Fin 256) (k : Fin 512)
    (hr : 256 * (t.val / 4 % 8) + q.val < 2048) (hk : 512 * (t.val % 4) + k.val < 2048) :
    (iblk m c 1 t : Vec F S256x512 .f32) (ix2 q k) = (V m c main_arg1 : Vec F S2048x2048 .f32) (ix2 ⟨_, hr⟩ ⟨_, hk⟩) := by
  unfold iblk
  rw [View.read_apply]
  show V m c main_arg1 _ = V m c main_arg1 _
  refine congrArg (V m c main_arg1) (funext fun a => Fin.ext ?_)
  match a with
  | ⟨0, _⟩ => show win0_1.index t 0 * 256 + 1 * q.val = 256 * (t.val / 4 % 8) + q.val; rw [(index_w t).1]; omega
  | ⟨1, _⟩ => show win0_1.index t 1 * 512 + 1 * k.val = 512 * (t.val % 4) + k.val; rw [(index_w t).2]; omega

/-- The bias block at (0, q) is the bias row at (0, 256 j + q). -/
theorem b_block (c : Dev nD) (t : Fin cfg0.N) (q : Fin 256) (hc : 256 * (t.val / 4 % 8) + q.val < 2048) :
    (iblk m c 2 t : Vec F S1x256 .f32) (ix2 (0 : Fin 1) q) = (V m c main_v1 : Vec F S1x2048 .f32) (ix2 (0 : Fin 1) ⟨_, hc⟩) := by
  unfold iblk
  rw [View.read_apply]
  show V m c main_v1 _ = V m c main_v1 _
  refine congrArg (V m c main_v1) (funext fun a => Fin.ext ?_)
  match a with
  | ⟨0, _⟩ => show win0_2.index t 0 * 1 + 1 * 0 = 0; rw [(index_b t).1]
  | ⟨1, _⟩ => show win0_2.index t 1 * 256 + 1 * q.val = 256 * (t.val / 4 % 8) + q.val; rw [(index_b t).2]; omega

end anyValues

section extendedReals

variable (m : (ℓ : Loc nD τ sig) → Buf (Elt Ideal) ℓ)

/-- The same two reads with the positions as natural numbers. -/
theorem x_block_nat (c : Dev nD) (t : Fin cfg0.N) (p : Fin 256) (k : Fin 512) :
    (iblk m c 0 t : Vec Ideal S256x512 .f32) (ix2 p k)
      = atNat (V m c main_v0 : Vec Ideal S4096x2048 .f32) (256 * (t.val / 32) + p.val) (512 * (t.val % 4) + k.val) := by
  have hN := lt_N t
  have hr : 256 * (t.val / 32) + p.val < 4096 := by have := p.isLt; omega
  have hk : 512 * (t.val % 4) + k.val < 2048 := by have := k.isLt; omega
  rw [atNat_of_lt _ hr hk]
  exact x_block m c t p k hr hk

theorem w_block_nat (c : Dev nD) (t : Fin cfg0.N) (q : Fin 256) (k : Fin 512) :
    (iblk m c 1 t : Vec Ideal S256x512 .f32) (ix2 q k)
      = atNat (V m c main_arg1 : Vec Ideal S2048x2048 .f32) (256 * (t.val / 4 % 8) + q.val) (512 * (t.val % 4) + k.val) := by
  have hN := lt_N t
  have hr : 256 * (t.val / 4 % 8) + q.val < 2048 := by have := q.isLt; omega
  have hk : 512 * (t.val % 4) + k.val < 2048 := by have := k.isLt; omega
  rw [atNat_of_lt _ hr hk]
  exact w_block m c t q k hr hk

theorem b_block_nat (c : Dev nD) (t : Fin cfg0.N) (q : Fin 256) :
    (iblk m c 2 t : Vec Ideal S1x256 .f32) (ix2 (0 : Fin 1) q)
      = atNat (V m c main_v1 : Vec Ideal S1x2048 .f32) 0 (256 * (t.val / 4 % 8) + q.val) := by
  have hc : 256 * (t.val / 4 % 8) + q.val < 2048 := by have := q.isLt; omega
  rw [atNat_of_lt _ Nat.one_pos hc]
  exact b_block m c t q hc

end extendedReals

end Cert.ReferenceIdeal.AccBlocks

end
-- ==== Proof.AccRunning.lean ====
/-
  The accumulator along a run of four points.  Points 4 a, 4 a + 1, 4 a + 2, 4 a + 3 share a row tile i and a column
  tile j and walk the four blocks of the contracted axis.  After point t = (i, j, κ) the accumulator's entry (p, q) is the
  sum of the first 512 (κ + 1) terms x (256 i + p, k) · w (256 j + q, k): the first point of a run starts from zero, each
  later point adds block κ's 512 terms to what the point before left.  After the last point of a run all 2048 terms
  are in, and the tile written out is that sum plus the bias.  Positions are natural numbers and the partial sums run
  over ranges, so the induction carries no bounds; only the laws of a commutative monoid are used.
-/
import proofs.«155436_g2000605269542612_pallasbulk_1228_29_alg».proof.Proof.AccBody
import proofs.«155436_g2000605269542612_pallasbulk_1228_29_alg».proof.Proof.AccEntries
import proofs.«155436_g2000605269542612_pallasbulk_1228_29_alg».proof.Proof.AccBlocks

noncomputable section

open Idealize.ShloMosaic Idealize.ShloMosaic.TcCoe Idealize.SL.Sem Idealize.ShloMosaic.ValueIdx
open scoped BigOperators

namespace Cert.ReferenceIdeal.AccRunning

open Cert.ReferenceIdeal Cert.ReferenceIdeal.Gen Cert.ReferenceIdeal.AccGrid Cert.ReferenceIdeal.AccBody
open Cert.ReferenceIdeal.AccEntries Cert.ReferenceIdeal.AccBlocks Cert.RowBlocks

section anyValues

variable {F : FTy → Type} [FloatOps F]
variable (m : (ℓ : Loc nD τ sig) → Buf (Elt F) ℓ)

/-- The three input blocks at a point, at their literal shapes. -/
def xTile (c : Dev nD) (t : Fin cfg0.N) : Vec F S256x512 .f32 := iblk m c 0 t
def wTile (c : Dev nD) (t : Fin cfg0.N) : Vec F S256x512 .f32 := iblk m c 1 t
def bTile (c : Dev nD) (t : Fin cfg0.N) : Vec F S1x256 .f32 := iblk m c 2 t

set_option maxHeartbeats 1600000 in
/-- At the first point of a run the accumulator ends at the zero block plus the block product. -/
theorem first_point (c : Dev nD) (t : Fin cfg0.N) (h0 : t.val % 4 = 0) (h1 : ¬t.val % 4 = 3) :
    (outsAt0 m c t.val t.isLt).2 = k0_pay2 k0_pay1 (xTile m c t) (wTile m c t) := by
  rw [outsAt0_A m c t h0 h1]
  exact acc_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

set_option maxHeartbeats 1600000 in
/-- At a later point it ends at what the point before left plus the block product. -/
theorem later_point (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (xTile m c t) (wTile m c t) := by
  by_cases h1 : t.val % 4 = 3
  · rw [outsAt0_C m c t h0 h1]
    exact acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    exact acc_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

set_option maxHeartbeats 1600000 in
/-- At the last point of a run the output tile is the accumulator it ends with, plus the bias row. -/
theorem last_point_out (c : Dev nD) (t : Fin cfg0.N) (h0 : ¬t.val % 4 = 0) (h1 : t.val % 4 = 3) :
    (outsAt0 m c t.val t.isLt).1 = k0_pay3 (outsAt0 m c t.val t.isLt).2 (bTile m c t) :=
  (congrArg Prod.fst (outsAt0_C m c t h0 h1)).trans
    ((out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
      (congrArg (fun a => k0_pay3 a (bTile m c t))
        ((acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm.trans (congrArg Prod.snd (outsAt0_C m c t h0 h1)).symm)))

end anyValues

section extendedReals

variable (m : (ℓ : Loc nD τ sig) → Buf (Elt Ideal) ℓ)

/-- The three arrays as the region finds them: x as rows, the weight, the bias as one row. -/
def xs (c : Dev nD) : Vec Ideal S4096x2048 .f32 := V m c main_v0
def ws (c : Dev nD) : Vec Ideal S2048x2048 .f32 := V m c main_arg1
def bs (c : Dev nD) : Vec Ideal S1x2048 .f32 := V m c main_v1

/-- Term k of the entry in row r and column n: x (r, k) · w (n, k). -/
def term (c : Dev nD) (r n k : ℕ) : EReal := atNat (xs m c) r k * atNat (ws m c) n k

/-- The block product at point t = (i, j, κ), entry (p, q): block κ's 512 terms of row 256 i + p against row 256 j + q. -/
theorem block_product (c : Dev nD) (t : Fin cfg0.N) (p q : Fin 256) :
    ∑ k : Fin 512, xTile m c t (ix2 p k) * wTile m c t (ix2 q k)
      = ∑ k : Fin 512, term m c (256 * (t.val / 32) + p.val) (256 * (t.val / 4 % 8) + q.val) (512 * (t.val % 4) + k.val) :=
  Finset.sum_congr rfl fun k _ => congrArg₂ (· * ·) (x_block_nat m c t p k) (w_block_nat m c t q k)

/-- First point of a run (κ = 0): the first 512 terms. -/
theorem at_first (c : Dev nD) (t : Fin cfg0.N) (h0 : t.val % 4 = 0) (p q : Fin 256) :
    (outsAt0 m c t.val t.isLt).2 (ix2 p q)
      = ∑ k ∈ Finset.range (512 * (t.val % 4 + 1)), term m c (256 * (t.val / 32) + p.val) (256 * (t.val / 4 % 8) + q.val) k := by
  rw [first_point m c t h0 (by omega)]
  refine (first_apply (xTile m c t) (wTile m c t) p q).trans ?_
  rw [block_product m c t p q, sum_range_block, h0]
  simp only [Nat.mul_zero, Finset.range_zero, Finset.sum_empty, zero_add]

/-- A later point: the terms before block κ, which the point before left, and block κ's. -/
theorem at_later (c : Dev nD) (t : Fin cfg0.N) (h0 : ¬t.val % 4 = 0) (p q : Fin 256)
    (ih : (outsAt0 m c (t.val - 1) (Nat.lt_of_le_of_lt (Nat.sub_le _ _) t.isLt)).2 (ix2 p q)
      = ∑ k ∈ Finset.range (512 * ((t.val - 1) % 4 + 1)), term m c (256 * ((t.val - 1) / 32) + p.val) (256 * ((t.val - 1) / 4 % 8) + q.val) k) :
    (outsAt0 m c t.val t.isLt).2 (ix2 p q)
      = ∑ k ∈ Finset.range (512 * (t.val % 4 + 1)), term m c (256 * (t.val / 32) + p.val) (256 * (t.val / 4 % 8) + q.val) k := by
  have e1 : (t.val - 1) % 4 + 1 = t.val % 4 := by omega
  have e2 : (t.val - 1) / 32 = t.val / 32 := by omega
  have e3 : (t.val - 1) / 4 % 8 = t.val / 4 % 8 := by omega
  rw [e1, e2, e3] at ih
  rw [later_point m c t h0]
  refine (step_apply (outsAt0 m c (t.val - 1) (Nat.lt_of_le_of_lt (Nat.sub_le _ _) t.isLt)).2 (xTile m c t) (wTile m c t) p q).trans ?_
  rw [ih, block_product m c t p q, sum_range_block]

/-- After every point the accumulator holds the first 512 (κ + 1) terms of each of its entries. -/
theorem running (c : Dev nD) : ∀ (n : ℕ) (h : n < cfg0.N) (p q : Fin 256),
    (outsAt0 m c n h).2 (ix2 p q)
      = ∑ k ∈ Finset.range (512 * (n % 4 + 1)), term m c (256 * (n / 32) + p.val) (256 * (n / 4 % 8) + q.val) k
  | 0, h, p, q => at_first m c ⟨0, h⟩ (Nat.zero_mod 4) p q
  | n + 1, h, p, q => by
    by_cases h0 : (n + 1) % 4 = 0
    · exact at_first m c ⟨n + 1, h⟩ h0 p q
    · exact at_later m c ⟨n + 1, h⟩ h0 p q (running c n (Nat.lt_of_succ_lt h) p q)

/-- The tile written out after the last point of a run: all 2048 terms, plus the bias. -/
theorem tile_entry (c : Dev nD) (t : Fin cfg0.N) (h3 : t.val % 4 = 3) (p q : Fin 256) :
    (outsAt0 m c t.val t.isLt).1 (ix2 p q)
      = (∑ k ∈ Finset.range 2048, term m c (256 * (t.val / 32) + p.val) (256 * (t.val / 4 % 8) + q.val) k)
        + atNat (bs m c) 0 (256 * (t.val / 4 % 8) + q.val) := by
  rw [last_point_out m c t (by omega) h3]
  refine (bias_apply (outsAt0 m c t.val t.isLt).2 (bTile m c t) p q).trans ?_
  rw [running m c t.val t.isLt p q, h3]
  exact congrArg (_ + ·) (b_block_nat m c t q)

end extendedReals

end Cert.ReferenceIdeal.AccRunning

end
-- ==== Proof.AccValue.lean ====
/-
  The reference's result.  The output array is written tile by tile: the last point of each run of four writes the
  256 × 256 tile in row tile i and column tile j, and the 16 × 8 runs cover the array.  By the running sums, entry
  (r, n) of the array ends at the sum over all 2048 positions k of x (r, k) · w (n, k), plus the bias's entry n — the
  specification's rows.  Around the call, x and the bias reach it through reshapes and the result leaves through one.
-/
import proofs.«155436_g2000605269542612_pallasbulk_1228_29_alg».proof.Proof.AccRunning
import proofs.«155436_g2000605269542612_pallasbulk_1228_29_alg».proof.Proof.AffineRows
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.ReferenceIdeal.AccValue

open Cert.ReferenceIdeal Cert.ReferenceIdeal.Gen Cert.ReferenceIdeal.AccGrid Cert.ReferenceIdeal.AccRunning Cert.RowBlocks

variable (m : (ℓ : Loc nD τ sig) → Buf (Elt Ideal) ℓ) (ρ : Dev nD → PrngReg)

/-- What the output array should end holding: the specification's rows of the arrays the region finds. -/
def tiles (c : Dev nD) : Vec Ideal S4096x2048 .f32 := Cert.AffineRows.rows (xs m c) (ws m c) (bs m c)

/-- An entry of the tile written after the last point of a run is the array's entry at the tile's offset. -/
theorem tile_at (c : Dev nD) (t : Fin cfg0.N) (h3 : t.val % 4 = 3) (y : S256x256.Idx) (i : S4096x2048.Idx)
    (h0 : (i 0).val = 256 * (t.val / 32) + (y 0).val) (h1 : (i 1).val = 256 * (t.val / 4 % 8) + (y 1).val) :
    (outsAt0 m c t.val t.isLt).1 y = tiles m c i := by
  obtain ⟨p, q, rfl⟩ : ∃ (p q : Fin 256), y = ix2 p q := ⟨y 0, y 1, eq_ix2 y⟩
  obtain ⟨r, n, rfl⟩ : ∃ (r : Fin 4096) (n : Fin 2048), i = ix2 r n := ⟨i 0, i 1, eq_ix2 i⟩
  have h0' : 256 * (t.val / 32) + p.val = r.val := h0.symm
  have h1' : 256 * (t.val / 4 % 8) + q.val = n.val := h1.symm
  rw [tile_entry m c t h3 p q, h0', h1']
  show _ = Cert.AffineRows.rows (xs m c) (ws m c) (bs m c) (ix2 r n)
  rw [Cert.AffineRows.rows_apply]
  refine congrArg₂ (· + ·) ?_ (atNat_fin (bs m c) (0 : Fin 1) n)
  exact sum_range_fin 2048 _ _ fun k => by unfold term; rw [atNat_fin, atNat_fin]

/-- What a flushing point writes back is its tile of that array. -/
theorem flushed_eq (c : Dev nD) (t : Fin cfg0.N) (hf : (cfg0.win 3).flush t = true) :
    (dats m 0 c).flushed 3 t = ((cfg0.win 3).blk t).view.read (Elt Ideal) (tiles m c) := by
  have h3 : t.val % 4 = 3 := (flush0_3 t).mp hf
  show (cfg0.win 3).cut (grid0.coords t) ((dats m 0 c).after 3 t) = _
  rw [after0_3]
  funext y
  show (outsAt0 m c t.val t.isLt).1 y = tiles m c (((cfg0.win 3).blk t).view.emb y)
  refine tile_at m c t h3 y _ ?_ ?_
  · show win0_3.index t 0 * 256 + 1 * (y 0).val = 256 * (t.val / 32) + (y 0).val
    rw [(index_o t).1]; omega
  · show win0_3.index t 1 * 256 + 1 * (y 1).val = 256 * (t.val / 4 % 8) + (y 1).val
    rw [(index_o t).2]; omega

/-- An index of the array is in point t's tile iff each coordinate is in the tile's range on its axis. -/
theorem mem_tile (t : Fin cfg0.N) (i : S4096x2048.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v2).slice (win0_3.rect t)).set ↔ _
  rw [View.set_slice_whole, Rect.mem_set_unit]
  exact Iff.rfl

/-- Every index is in the tile of the last point of its run: row r and column n belong to run (r / 256, n / 256). -/
theorem covered (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hlt : ((i 0).val / 256 * 8 + (i 1).val / 256) * 4 + 3 < cfg0.N := by rw [show cfg0.N = 512 from N_0]; omega
  have e0 : win0_3.index ⟨_, hlt⟩ (0 : Fin 2) = (((i 0).val / 256 * 8 + (i 1).val / 256) * 4 + 3) / 32 := (index_o ⟨_, hlt⟩).1
  have e1 : win0_3.index ⟨_, hlt⟩ (1 : Fin 2) = (((i 0).val / 256 * 8 + (i 1).val / 256) * 4 + 3) / 4 % 8 := (index_o ⟨_, hlt⟩).2
  refine ⟨⟨_, hlt⟩, (flush0_3 _).mpr (by show (((i 0).val / 256 * 8 + (i 1).val / 256) * 4 + 3) % 4 = 3; omega), ?_⟩
  rw [mem_tile]
  intro a
  match a with
  | ⟨0, _⟩ =>
    show win0_3.index ⟨_, hlt⟩ (0 : Fin 2) * 256 ≤ (i 0).val ∧ (i 0).val < win0_3.index ⟨_, hlt⟩ (0 : Fin 2) * 256 + 256
    rw [e0]; omega
  | ⟨1, _⟩ =>
    show win0_3.index ⟨_, hlt⟩ (1 : Fin 2) * 256 ≤ (i 1).val ∧ (i 1).val < win0_3.index ⟨_, hlt⟩ (1 : Fin 2) * 256 + 256
    rw [e1]; omega

/-- So the output array ends holding the specification's rows. -/
theorem final (c : Dev nD) : (dats m 0 c).arrAt 3 cfg0.N = tiles m c :=
  (dats m 0 c).arrAt_eq_of_cover 3 (tiles m c) (flushed_eq m c) covered

/-- The arrays the region finds: x reshaped to rows, the weight as given, the bias reshaped to one row. -/
theorem xs_eq (c : Dev nD) : xs m c = shapeCast S4096x2048 (m ((c : Thread nD τ).loc main_arg0)) shapeCasts_S8x512x2048_S4096x2048 := by
  unfold xs
  show StableHlo.after hostOps0 (fun b => m (c, b)) (Proc.devRef .tc main_v0) = _
  after_results; rfl

theorem bs_eq (c : Dev nD) : bs m c = shapeCast S1x2048 (m ((c : Thread nD τ).loc main_arg2)) shapeCasts_S2048_S1x2048 := by
  unfold bs
  show StableHlo.after hostOps0 (fun b => m (c, b)) (Proc.devRef .tc main_v1) = _
  after_results; rfl

theorem ws_eq (c : Dev nD) : ws m c = m ((c : Thread nD τ).loc main_arg1) := V_main_arg1 m c

/-- The result buffer after the reshape that follows the call. -/
theorem tail_eq (c : Dev nD) : Pipeline.afterTail₀ cfgs (dats m) 0 (V0 m) [hostOps1] c main_v3
    = shapeCast S8x512x2048 (tiles m c) shapeCasts_S4096x2048_S8x512x2048 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2) = tiles m c :=
    (Pipeline.withArrays_arr spec0 launch0.win.arr_inj c (V0 m c) (fun w => (dats m 0 c).arrAt w cfg0.N) 3).trans (final m c)
  exact congrArg (fun A => shapeCast S8x512x2048 A shapeCasts_S4096x2048_S8x512x2048) e

/-- The specification's result of the three arguments. -/
theorem result_eq (c : Dev nD) : shapeCast S8x512x2048 (tiles m c) shapeCasts_S4096x2048_S8x512x2048
    = Cert.AffineRows.result (m ((c : Thread nD τ).loc main_arg0)) (m ((c : Thread nD τ).loc main_arg1)) (m ((c : Thread nD τ).loc main_arg2))
        shapeCasts_S8x512x2048_S4096x2048 shapeCasts_S2048_S1x2048 shapeCasts_S4096x2048_S8x512x2048 := by
  unfold tiles Cert.AffineRows.result
  rw [xs_eq, ws_eq, bs_eq]

/-- The run: every weakly fair execution ends with the result buffer at the specification's result of the arguments,
    and the arguments unchanged. -/
theorem run : θ_run (defs (F := Ideal)) (onTc (τ := τ) (main (F := Ideal))) ⟨m, fun _ => 0, ρ⟩ (fun r => ∀ c : Dev nD,
      r.2.mem ((c.tc : Thread nD τ).loc main_v3) = Cert.AffineRows.result (m ((c.tc : Thread nD τ).loc main_arg0)) (m ((c.tc : Thread nD τ).loc main_arg1)) (m ((c.tc : Thread nD τ).loc main_arg2))
          shapeCasts_S8x512x2048_S4096x2048 shapeCasts_S2048_S1x2048 shapeCasts_S4096x2048_S8x512x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.ReferenceIdeal.AccValue

end
-- ==== Proof.lean ====
/-
  A linear layer, y = x · wᵀ + b, computed two ways over x : [8, 512, 2048], w : [2048, 2048], b : [2048].

  Both programs view x as 4096 rows of 2048 entries and the bias as one row, call one kernel on a grid, and view the
  4096 × 2048 result as [8, 512, 2048] again.  The kernel walks 8 tiles of 512 rows: at the first tile it keeps a
  narrowed copy of the whole weight, and at every tile it forms the tile's rows against all 2048 rows of that copy in
  one product over the full contracted axis and adds the bias row.  The reference walks 16 × 8 tiles of 256 × 256
  entries, and for each tile four blocks of 512 positions of the contracted axis: it sets an accumulator to zero at the
  first block, adds one block product per block, and at the last block writes the accumulator plus the bias.

  On the extended reals a change of float format is the identity, so the kernel's entry (r, n) is the sum over all
  2048 positions k of x (r, k) · w (n, k), plus b (n).  The reference's entry is (((0 + S₀) + S₁) + S₂) + S₃ + b (n) with
  S_κ the sum over block κ's 512 positions: the same 2048 terms, grouped.  Sums on the extended reals form a commutative
  monoid, so regrouping needs no finiteness, and the precondition is not used.  Each side is shown to end at one
  common function of the arguments (the specification's `result`); the claim pairs the two runs through it.
  The ideal pass rewrote nothing, so the kernel's idealization is its own text read at the extended reals.
-/
import proofs.«155436_g2000605269542612_pallasbulk_1228_29_alg».proof.Defs
import proofs.«155436_g2000605269542612_pallasbulk_1228_29_alg».proof.Proof.Gen.Kernel
import proofs.«155436_g2000605269542612_pallasbulk_1228_29_alg».proof.Proof.Gen.Kernel.Frame
import proofs.«155436_g2000605269542612_pallasbulk_1228_29_alg».proof.Proof.Gen.KernelIdeal
import proofs.«155436_g2000605269542612_pallasbulk_1228_29_alg».proof.Proof.Gen.KernelIdeal.Frame
import proofs.«155436_g2000605269542612_pallasbulk_1228_29_alg».proof.Proof.Gen.ReferenceIdeal
import proofs.«155436_g2000605269542612_pallasbulk_1228_29_alg».proof.Proof.Gen.ReferenceIdeal.Frame
import proofs.«155436_g2000605269542612_pallasbulk_1228_29_alg».proof.Proof.Gen.Pre_finite_inputs
import proofs.«155436_g2000605269542612_pallasbulk_1228_29_alg».proof.Proof.RowTileRun
import proofs.«155436_g2000605269542612_pallasbulk_1228_29_alg».proof.Proof.AccValue

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- Nothing was rewritten on the way to the extended reals. -/
theorem preserves : Cert.preserves_Kernel_KernelIdeal := trivial

/-- From arguments that agree, both runs end with the result buffer at the specification's result of the arguments. -/
theorem algebraic : Cert.algebraic_KernelIdeal_ReferenceIdeal := by
  intro m ρ m' ρ' _ hagree
  refine ⟨_, Cert.KernelIdeal.RowTiles.run m ρ, ?_⟩
  refine (θ_run Cert.ReferenceIdeal.defs _ _).mono (fun _ h c => ⟨(h c).1.trans ?_, (h c).2⟩)
    (Cert.ReferenceIdeal.AccValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
